-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x8x256x64 : Shape := ⟨5, ![2, 64, 8, 256, 64]⟩
abbrev S2x64x8x256x256 : Shape := ⟨5, ![2, 64, 8, 256, 256]⟩
abbrev S_ : Shape := ⟨0, ![]⟩

class Facts : Prop where
  bcast_S_S2x64x8x256x64 : S_.BroadcastsInDim S2x64x8x256x64 (![] : Fin 0 → Fin S2x64x8x256x64.rank)
  reducesTo_S2x64x8x256x64_S_d0_1_2_3_4 : S2x64x8x256x64.ReducesTo [0, 1, 2, 3, 4] S_
  h_S_ : 0 < S_.numel
  bcast_S_S2x64x8x256x256 : S_.BroadcastsInDim S2x64x8x256x256 (![] : Fin 0 → Fin S2x64x8x256x256.rank)
  reducesTo_S2x64x8x256x256_S_d0_1_2_3_4 : S2x64x8x256x256.ReducesTo [0, 1, 2, 3, 4] S_

variable [Facts]

def fn_part1 {F : FTy → Type} [FloatOps F] (main_arg4 : FVec F S2x64x8x256x256 .f32) (main_v13 : IVec S_ 1) (main_v16 : IVec S2x64x8x256x256 1) : IVec S_ 1 :=
  let main_c_5 : IVec S_ 1 := constantI S_ 1 1#1
  let main_v17 : IVec S_ 1 := (fun x v => Host.reduce IntOp.andi x v reducesTo_S2x64x8x256x256_S_d0_1_2_3_4 h_S_) main_v16 main_c_5
  let main_v18 : IVec S_ 1 := andi main_v13 main_v17
  let main_v19 : FVec F S2x64x8x256x256 .f32 := Host.absf main_arg4
  let main_cst_6 : FVec F S_ .f32 := constant S_ .f32 0x7F800000#32
  let main_v20 : FVec F S2x64x8x256x256 .f32 := broadcastInDim S2x64x8x256x256 ![] bcast_S_S2x64x8x256x256 main_cst_6
  let main_v21 : IVec S2x64x8x256x256 1 := cmpf .olt main_v19 main_v20
  let main_c_7 : IVec S_ 1 := constantI S_ 1 1#1
  let main_v22 : IVec S_ 1 := (fun x v => Host.reduce IntOp.andi x v reducesTo_S2x64x8x256x256_S_d0_1_2_3_4 h_S_) main_v21 main_c_7
  let main_v23 : IVec S_ 1 := andi main_v18 main_v22
  main_v23

def fn {F : FTy → Type} [FloatOps F] (main_arg0 : FVec F S2x64x8x256x64 .f32) (main_arg1 : FVec F S2x64x8x256x64 .f32) (main_arg2 : FVec F S2x64x8x256x64 .f32) (main_arg3 : FVec F S2x64x8x256x256 .f32) (main_arg4 : FVec F S2x64x8x256x256 .f32) : IVec S_ 1 :=
  let main_v0 : FVec F S2x64x8x256x64 .f32 := Host.absf main_arg0
  let main_cst : FVec F S_ .f32 := constant S_ .f32 0x7F800000#32
  let main_v1 : FVec F S2x64x8x256x64 .f32 := broadcastInDim S2x64x8x256x64 ![] bcast_S_S2x64x8x256x64 main_cst
  let main_v2 : IVec S2x64x8x256x64 1 := cmpf .olt main_v0 main_v1
  let main_c : IVec S_ 1 := constantI S_ 1 1#1
  let main_v3 : IVec S_ 1 := (fun x v => Host.reduce IntOp.andi x v reducesTo_S2x64x8x256x64_S_d0_1_2_3_4 h_S_) main_v2 main_c
  let main_v4 : FVec F S2x64x8x256x64 .f32 := Host.absf main_arg1
  let main_cst_0 : FVec F S_ .f32 := constant S_ .f32 0x7F800000#32
  let main_v5 : FVec F S2x64x8x256x64 .f32 := broadcastInDim S2x64x8x256x64 ![] bcast_S_S2x64x8x256x64 main_cst_0
  let main_v6 : IVec S2x64x8x256x64 1 := cmpf .olt main_v4 main_v5
  let main_c_1 : IVec S_ 1 := constantI S_ 1 1#1
  let main_v7 : IVec S_ 1 := (fun x v => Host.reduce IntOp.andi x v reducesTo_S2x64x8x256x64_S_d0_1_2_3_4 h_S_) main_v6 main_c_1
  let main_v8 : IVec S_ 1 := andi main_v3 main_v7
  let main_v9 : FVec F S2x64x8x256x64 .f32 := Host.absf main_arg2
  let main_cst_2 : FVec F S_ .f32 := constant S_ .f32 0x7F800000#32
  let main_v10 : FVec F S2x64x8x256x64 .f32 := broadcastInDim S2x64x8x256x64 ![] bcast_S_S2x64x8x256x64 main_cst_2
  let main_v11 : IVec S2x64x8x256x64 1 := cmpf .olt main_v9 main_v10
  let main_c_3 : IVec S_ 1 := constantI S_ 1 1#1
  let main_v12 : IVec S_ 1 := (fun x v => Host.reduce IntOp.andi x v reducesTo_S2x64x8x256x64_S_d0_1_2_3_4 h_S_) main_v11 main_c_3
  let main_v13 : IVec S_ 1 := andi main_v8 main_v12
  let main_v14 : FVec F S2x64x8x256x256 .f32 := Host.absf main_arg3
  let main_cst_4 : FVec F S_ .f32 := constant S_ .f32 0x7F800000#32
  let main_v15 : FVec F S2x64x8x256x256 .f32 := broadcastInDim S2x64x8x256x256 ![] bcast_S_S2x64x8x256x256 main_cst_4
  let main_v16 : IVec S2x64x8x256x256 1 := cmpf .olt main_v14 main_v15
  fn_part1 (F := F) main_arg4 main_v13 main_v16
-- ==== Kernel.lean ====
abbrev S2x64x8x256x64 : Shape := ⟨5, ![2, 64, 8, 256, 64]⟩
abbrev S2x64x8x256x256 : Shape := ⟨5, ![2, 64, 8, 256, 256]⟩
abbrev S1024x256x64 : Shape := ⟨3, ![1024, 256, 64]⟩
abbrev S1024x256x256 : Shape := ⟨3, ![1024, 256, 256]⟩
abbrev S16x256x64 : Shape := ⟨3, ![16, 256, 64]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 14
  | .vmem => 12
  | .smem => 0
  | _ => 0

abbrev bufTy : (tb : Table) → Fin (tcTables nBuf tb) → BufTy
  | .hbm, ⟨0, _⟩ => ⟨S2x64x8x256x64, .f32⟩
  | .hbm, ⟨1, _⟩ => ⟨S2x64x8x256x64, .f32⟩
  | .hbm, ⟨2, _⟩ => ⟨S2x64x8x256x64, .f32⟩
  | .hbm, ⟨3, _⟩ => ⟨S2x64x8x256x256, .f32⟩
  | .hbm, ⟨4, _⟩ => ⟨S2x64x8x256x256, .f32⟩
  | .hbm, ⟨5, _⟩ => ⟨S1024x256x64, .f32⟩
  | .hbm, ⟨6, _⟩ => ⟨S1024x256x64, .f32⟩
  | .hbm, ⟨7, _⟩ => ⟨S1024x256x64, .f32⟩
  | .hbm, ⟨8, _⟩ => ⟨S1024x256x256, .f32⟩
  | .hbm, ⟨9, _⟩ => ⟨S1024x256x256, .bf16⟩
  | .hbm, ⟨10, _⟩ => ⟨S1024x256x256, .f32⟩
  | .hbm, ⟨11, _⟩ => ⟨S1024x256x256, .bf16⟩
  | .hbm, ⟨12, _⟩ => ⟨S1024x256x64, .f32⟩
  | .hbm, ⟨13, _⟩ => ⟨S2x64x8x256x64, .f32⟩
  | .local _ .vmem, ⟨0, _⟩ => ⟨S16x256x64, .f32⟩
  | .local _ .vmem, ⟨1, _⟩ => ⟨S16x256x64, .f32⟩
  | .local _ .vmem, ⟨2, _⟩ => ⟨S16x256x64, .f32⟩
  | .local _ .vmem, ⟨3, _⟩ => ⟨S16x256x64, .f32⟩
  | .local _ .vmem, ⟨4, _⟩ => ⟨S16x256x64, .f32⟩
  | .local _ .vmem, ⟨5, _⟩ => ⟨S16x256x64, .f32⟩
  | .local _ .vmem, ⟨6, _⟩ => ⟨S16x256x256, .bf16⟩
  | .local _ .vmem, ⟨7, _⟩ => ⟨S16x256x256, .bf16⟩
  | .local _ .vmem, ⟨8, _⟩ => ⟨S16x256x256, .bf16⟩
  | .local _ .vmem, ⟨9, _⟩ => ⟨S16x256x256, .bf16⟩
  | .local _ .vmem, ⟨10, _⟩ => ⟨S16x256x64, .f32⟩
  | .local _ .vmem, ⟨11, _⟩ => ⟨S16x256x64, .f32⟩
  | _, _ => ⟨S2x64x8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x64x8x256x64_S1024x256x64 : S2x64x8x256x64.ShapeCasts S1024x256x64
  shapeCasts_S2x64x8x256x256_S1024x256x256 : S2x64x8x256x256.ShapeCasts S1024x256x256
  bitsLt_bf16_f32 : FTy.bits .bf16 < FTy.bits .f32
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  shapeCasts_S16x256_S16x256x1 : S16x256.ShapeCasts S16x256x1
  broadcasts_S16x256x1_S16x256x256 : S16x256x1.Broadcasts S16x256x256
  shapeCasts_S1024x256x64_S2x64x8x256x64 : S1024x256x64.ShapeCasts S2x64x8x256x64
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S1024x256x64.size a
  hwx0_0 : ∀ i : grid0.Coords, EltTy.bits .f32 = 32 ∨ (Rect.block (s := S1024x256x64) S16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x64.size a ≤ S1024x256x64.size a
  hwx0_1 : ∀ i : grid0.Coords, EltTy.bits .f32 = 32 ∨ (Rect.block (s := S1024x256x64) S16x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x64.size a ≤ S1024x256x64.size a
  hwx0_2 : ∀ i : grid0.Coords, EltTy.bits .f32 = 32 ∨ (Rect.block (s := S1024x256x64) S16x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S1024x256x256.size a
  hwx0_3 : ∀ i : grid0.Coords, EltTy.bits .bf16 = 32 ∨ (Rect.block (s := S1024x256x256) S16x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S1024x256x256.size a
  hwx0_4 : ∀ i : grid0.Coords, EltTy.bits .bf16 = 32 ∨ (Rect.block (s := S1024x256x256) S16x256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x64.size a ≤ S1024x256x64.size a
  hwx0_5 : ∀ i : grid0.Coords, EltTy.bits .f32 = 32 ∨ (Rect.block (s := S1024x256x64) S16x256x64.size (cc0_transform_5 i) (hinb0_5 i)).WholeWords (EltTy.packing .f32)

variable [Facts₀]

def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_v0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x64x8x256x64 : Shape := ⟨5, ![2, 64, 8, 256, 64]⟩
abbrev S2x64x8x256x256 : Shape := ⟨5, ![2, 64, 8, 256, 256]⟩
abbrev S_ : Shape := ⟨0, ![]⟩
abbrev S2x64x8x256 : Shape := ⟨4, ![2, 64, 8, 256]⟩
abbrev S2x64x8x256x1 : Shape := ⟨5, ![2, 64, 8, 256, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x64x8x256x64, .f32⟩
  | .hbm, ⟨1, _⟩ => ⟨S2x64x8x256x64, .f32⟩
  | .hbm, ⟨2, _⟩ => ⟨S2x64x8x256x64, .f32⟩
  | .hbm, ⟨3, _⟩ => ⟨S2x64x8x256x256, .f32⟩
  | .hbm, ⟨4, _⟩ => ⟨S2x64x8x256x256, .f32⟩
  | .hbm, ⟨5, _⟩ => ⟨S2x64x8x256x256, .f32⟩
  | .hbm, ⟨6, _⟩ => ⟨S_, .f32⟩
  | .hbm, ⟨7, _⟩ => ⟨S2x64x8x256x256, .f32⟩
  | .hbm, ⟨8, _⟩ => ⟨S2x64x8x256x256, .f32⟩
  | .hbm, ⟨9, _⟩ => ⟨S2x64x8x256x256, .f32⟩
  | .hbm, ⟨10, _⟩ => ⟨S2x64x8x256x256, .f32⟩
  | .hbm, ⟨11, _⟩ => ⟨S_, .f32⟩
  | .hbm, ⟨12, _⟩ => ⟨S2x64x8x256, .f32⟩
  | .hbm, ⟨13, _⟩ => ⟨S_, .f32⟩
  | .hbm, ⟨14, _⟩ => ⟨S2x64x8x256, .f32⟩
  | .hbm, ⟨15, _⟩ => ⟨S2x64x8x256, .f32⟩
  | .hbm, ⟨16, _⟩ => ⟨S2x64x8x256x1, .f32⟩
  | .hbm, ⟨17, _⟩ => ⟨S2x64x8x256x256, .f32⟩
  | .hbm, ⟨18, _⟩ => ⟨S2x64x8x256x256, .f32⟩
  | .hbm, ⟨19, _⟩ => ⟨S2x64x8x256x256, .f32⟩
  | .hbm, ⟨20, _⟩ => ⟨S_, .f32⟩
  | .hbm, ⟨21, _⟩ => ⟨S2x64x8x256, .f32⟩
  | .hbm, ⟨22, _⟩ => ⟨S2x64x8x256x1, .f32⟩
  | .hbm, ⟨23, _⟩ => ⟨S2x64x8x256x256, .f32⟩
  | .hbm, ⟨24, _⟩ => ⟨S2x64x8x256x256, .f32⟩
  | .hbm, ⟨25, _⟩ => ⟨S2x64x8x256x64, .f32⟩
  | _, _ => ⟨S2x64x8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S2x64x8x256x256 : S_.BroadcastsInDim S2x64x8x256x256 (![] : Fin 0 → Fin S2x64x8x256x256.rank)
  reducesTo_S2x64x8x256x256_S2x64x8x256_d4 : S2x64x8x256x256.ReducesTo [4] S2x64x8x256
  h_S_ : 0 < S_.numel
  bcast_S_S2x64x8x256 : S_.BroadcastsInDim S2x64x8x256 (![] : Fin 0 → Fin S2x64x8x256.rank)
  bcast_S2x64x8x256_S2x64x8x256x1_0_1_2_3 : S2x64x8x256.BroadcastsInDim S2x64x8x256x1 (![0, 1, 2, 3] : Fin 4 → Fin S2x64x8x256x1.rank)
  bcast_S2x64x8x256x1_S2x64x8x256x256_0_1_2_3_4 : S2x64x8x256x1.BroadcastsInDim S2x64x8x256x256 (![0, 1, 2, 3, 4] : Fin 5 → Fin S2x64x8x256x256.rank)
  dot_S2x64x8x256x64_S2x64x8x256x64_S2x64x8x256x256_4_4_3_3_012_012_wf : DotDims.WF S2x64x8x256x64 S2x64x8x256x64 S2x64x8x256x256 [4] [4] [3] [3] [0, 1, 2] [0, 1, 2]
  dot_S2x64x8x256x256_S2x64x8x256x64_S2x64x8x256x64_4_3_3_4_012_012_wf : DotDims.WF S2x64x8x256x256 S2x64x8x256x64 S2x64x8x256x64 [4] [3] [3] [4] [0, 1, 2] [0, 1, 2]

variable [Facts₀]

def dot_S2x64x8x256x64_S2x64x8x256x64_S2x64x8x256x256_4_4_3_3_012_012 : DotDims S2x64x8x256x64 S2x64x8x256x64 S2x64x8x256x256 where
  lhsContracting := [4]
  rhsContracting := [4]
  lhsNonContracting := [3]
  rhsNonContracting := [3]
  lhsBatch := [0, 1, 2]
  rhsBatch := [0, 1, 2]
  wf := dot_S2x64x8x256x64_S2x64x8x256x64_S2x64x8x256x256_4_4_3_3_012_012_wf
def dot_S2x64x8x256x256_S2x64x8x256x64_S2x64x8x256x64_4_3_3_4_012_012 : DotDims S2x64x8x256x256 S2x64x8x256x64 S2x64x8x256x64 where
  lhsContracting := [4]
  rhsContracting := [3]
  lhsNonContracting := [3]
  rhsNonContracting := [4]
  lhsBatch := [0, 1, 2]
  rhsBatch := [0, 1, 2]
  wf := dot_S2x64x8x256x256_S2x64x8x256x64_S2x64x8x256x64_4_3_3_4_012_012_wf

class Facts : Prop extends Facts₀ where

variable [Facts]
-- ==== Proof.AttentionRow.lean ====
/-
  One query row of masked, biased softmax attention over the extended reals, and the one algebraic law
  the two programs differ by.

  For a fixed batch entry and query position the data are: the query row `q : Fin 64 → EReal`, the keys
  `k : Fin 256 → Fin 64 → EReal`, the values `v : Fin 256 → Fin 64 → EReal`, the positional bias row `p` and
  the multiplicative mask row `mk` (both `Fin 256 → EReal`). The score of key `j` is
  `mk j · (⟨q, k j⟩ / 8 + p j)`; the row's weights are `exp (s j − max s) / ∑ exp (s j' − max s)`; the output at
  feature `d` is `∑ j, weight j · v j d`.

  The kernel multiplies each query entry by 1/8 BEFORE the dot product, the reference multiplies the finished dot
  product. Multiplication by a finite nonnegative constant distributes over every sum of extended reals (also
  sums that meet +∞ and −∞), so the two scores are equal with no hypothesis on `q` and `k`.
-/
import Idealize.ShloMosaic.PureOps.Ideal
import Idealize.ShloMosaic.PureOps.Ideal.Laws

noncomputable section

namespace Cert.AttentionRow

open Idealize.ShloMosaic

/-- The temperature 1/8, as the word both programs carry. -/
abbrev scale : EReal := Ideal.ofBits .f32 0x3E000000#32

/-- The value both running maxima start from (the word of −∞). -/
abbrev floorWord : EReal := Ideal.ofBits .f32 0xFF800000#32

/-- The word 0x3E000000 is the real number 1/8. -/
theorem scale_eq : scale = ((1 / 8 : ℝ) : EReal) := by
  simp [scale, Ideal.ofBits, Ideal.ieee, -EReal.coe_mul]
  norm_num

theorem scale_nonneg : 0 ≤ scale := by
  rw [scale_eq]; exact EReal.coe_nonneg.mpr (by norm_num)

theorem scale_ne_top : scale ≠ ⊤ := by
  rw [scale_eq]; exact EReal.coe_ne_top _

/-- Multiplying by the temperature commutes with finite sums of extended reals: `x ↦ x · (1/8)` is additive
    because the constant is nonnegative and finite. -/
theorem sum_mul_scale {ι : Type*} (s : Finset ι) (x : ι → EReal) :
    ∑ i ∈ s, x i * scale = (∑ i ∈ s, x i) * scale := by
  classical
  induction s using Finset.induction_on with
  | empty => simp
  | insert a s ha ih =>
    rw [Finset.sum_insert ha, Finset.sum_insert ha, ih,
      EReal.right_distrib_of_nonneg_of_ne_top scale_nonneg scale_ne_top]

/-- Scores with the temperature applied to the query entries before the products (the kernel's order). -/
def scoresScaledQuery (q : Fin 64 → EReal) (k : Fin 256 → Fin 64 → EReal) (p mk : Fin 256 → EReal)
    (j : Fin 256) : EReal :=
  mk j * ((∑ d : Fin 64, (q d * scale) * k j d) + p j)

/-- Scores with the temperature applied to the finished dot product (the reference's order). -/
def scores (q : Fin 64 → EReal) (k : Fin 256 → Fin 64 → EReal) (p mk : Fin 256 → EReal)
    (j : Fin 256) : EReal :=
  mk j * ((∑ d : Fin 64, q d * k j d) * scale + p j)

/-- The two orders give the same scores: `(q d · c) · k = (q d · k) · c` term by term, and `· c` leaves the sum. -/
theorem scoresScaledQuery_eq (q : Fin 64 → EReal) (k : Fin 256 → Fin 64 → EReal) (p mk : Fin 256 → EReal) :
    scoresScaledQuery q k p mk = scores q k p mk := by
  funext j
  unfold scoresScaledQuery scores
  rw [← sum_mul_scale]
  exact congrArg (fun t => mk j * (t + p j)) (Finset.sum_congr rfl fun d _ => mul_right_comm _ _ _)

/-- The running maximum of a row of scores, started from the word of −∞. -/
def rowMax (s : Fin 256 → EReal) : EReal := (Finset.univ : Finset (Fin 256)).fold max floorWord s

/-- Taking the maximum with the starting value once more changes nothing. -/
theorem max_floor_rowMax (s : Fin 256 → EReal) : max floorWord (rowMax s) = rowMax s := by
  apply max_eq_right
  unfold rowMax
  rw [Finset.le_fold_max]
  exact Or.inl le_rfl

/-- The softmax weight of key `j`. -/
def weight (s : Fin 256 → EReal) (j : Fin 256) : EReal :=
  Ideal.div (Ideal.exp (s j - rowMax s)) (∑ j' : Fin 256, Ideal.exp (s j' - rowMax s))

/-- The attention output of the row at feature `d`. -/
def attend (s : Fin 256 → EReal) (v : Fin 256 → Fin 64 → EReal) (d : Fin 64) : EReal :=
  ∑ j : Fin 256, weight s j * v j d

end Cert.AttentionRow

end
-- ==== Proof.ReferenceRow.lean ====
/-
  The reference program, read at one output index (b, p, h, r, d): it is the attention row function of
  Proof/AttentionRow.lean applied to the rows of the five argument arrays that share the batch coordinates
  (b, p, h) — the query row r, all 256 keys and values, and row r of the bias and the mask.

  The stages are read one at a time through the generated index lemmas of the reference's run: the masked, biased
  scores; the row maximum (a fold of `max` from the word of −∞, then once more `max` with that word, which changes
  nothing); the exponentials; their sum (0 plus the sum); the quotient; the weighted sum over the keys.
-/
import proofs.«147819_j72189810311255_2_alg».proof.Proof.Gen.ReferenceIdeal.Read
import proofs.«147819_j72189810311255_2_alg».proof.Proof.AttentionRow
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.TcCoe
open Idealize.ShloMosaic.ValueIdx Cert.AttentionRow

variable (x0 x1 x2 : (⟨S2x64x8x256x64, .f32⟩ : BufTy).Contents (Elt Ideal))
variable (x3 x4 : (⟨S2x64x8x256x256, .f32⟩ : BufTy).Contents (Elt Ideal))
variable (b : Fin 2) (p : Fin 64) (h : Fin 8) (r : Fin 256)

/-- The scores of query row (b, p, h, r) as the reference forms them. -/
abbrev rowScores : Fin 256 → EReal :=
  scores (fun d' => x0 (ix5 b p h r d')) (fun j d' => x1 (ix5 b p h j d'))
    (fun j => x3 (ix5 b p h r j)) (fun j => x4 (ix5 b p h r j))

/-- Stage %4 at (b, p, h, r, j): the masked, biased score of key j. -/
theorem score_apply (j : Fin 256) :
    val_main_v4 (F := Ideal) x0 x1 x3 x4 (ix5 b p h r j) = rowScores x0 x1 x3 x4 b p h r j := by
  have el : ∀ k : Fin 64, lidx_main_v0 (ix5 b p h r j) k = ix5 b p h r k := fun k =>
    funext fun a => Fin.ext (by match a with | ⟨0, _⟩ => rfl | ⟨1, _⟩ => rfl | ⟨2, _⟩ => rfl | ⟨3, _⟩ => rfl | ⟨4, _⟩ => rfl)
  have er : ∀ k : Fin 64, ridx_main_v0 (ix5 b p h r j) k = ix5 b p h j k := fun k =>
    funext fun a => Fin.ext (by match a with | ⟨0, _⟩ => rfl | ⟨1, _⟩ => rfl | ⟨2, _⟩ => rfl | ⟨3, _⟩ => rfl | ⟨4, _⟩ => rfl)
  rw [val_main_v4_apply, val_main_v3_apply, val_main_v2_apply, val_main_v0_apply, val_main_v1_apply, val_main_cst_apply]
  simp only [el, er, Ideal.mulf_def, Ideal.addf_def, Ideal.ofBits_def]
  rfl

/-- The coordinate the reduction drops, put back: (b, p, h, r) with key k inserted is (b, p, h, r, k). -/
theorem lift_ix4 (hr : S2x64x8x256x256.Reduces [4] S2x64x8x256) (k : Fin (S2x64x8x256x256.size 4)) :
    hr.lift (ix4 b p h r) k = ix5 b p h r (⟨k.val, k.isLt⟩ : Fin 256) := by
  funext c; apply Fin.ext
  fin_cases c <;> rfl

/-- Stage %5 at (b, p, h, r): the maximum of the row's scores from the word of −∞. -/
theorem max_apply :
    val_main_v5 (F := Ideal) x0 x1 x3 x4 (ix4 b p h r) = rowMax (rowScores x0 x1 x3 x4 b p h r) := by
  have hr : S2x64x8x256x256.Reduces [4] S2x64x8x256 := by decide
  unfold val_main_v5
  rw [Host.reduce_eq_fold_single FloatOps.maximumf _ _ reducesTo_S2x64x8x256x256_S2x64x8x256_d4 hr h_S_]
  have hf : (val_main_v4 (F := Ideal) x0 x1 x3 x4 ∘ hr.lift (ix4 b p h r)) = fun k : Fin 256 => rowScores x0 x1 x3 x4 b p h r k :=
    funext fun k => by
      show val_main_v4 (F := Ideal) x0 x1 x3 x4 (hr.lift (ix4 b p h r) k) = _
      rw [lift_ix4 b p h r hr k]
      exact score_apply x0 x1 x3 x4 b p h r _
  unfold rowMax
  exact congrArg (fun f => Finset.fold max floorWord f (Finset.univ : Finset (Fin 256))) hf

/-- Stage %7: the same maximum (one more `max` with the word of −∞). -/
theorem max7_apply :
    val_main_v7 (F := Ideal) x0 x1 x3 x4 (ix4 b p h r) = rowMax (rowScores x0 x1 x3 x4 b p h r) := by
  rw [val_main_v7_apply, val_main_v6_apply, val_main_cst_1_apply, max_apply]
  simp only [Ideal.maximumf_def, Ideal.ofBits_def]
  exact max_floor_rowMax _

/-- Stage %9 at (b, p, h, r, j): the row's maximum, broadcast along the keys. -/
theorem max9_apply (j : Fin 256) :
    val_main_v9 (F := Ideal) x0 x1 x3 x4 (ix5 b p h r j) = rowMax (rowScores x0 x1 x3 x4 b p h r) := by
  have e : idx_main_v8 (idx_main_v9 (ix5 b p h r j)) = ix4 b p h r :=
    funext fun a => Fin.ext (by match a with | ⟨0, _⟩ => rfl | ⟨1, _⟩ => rfl | ⟨2, _⟩ => rfl | ⟨3, _⟩ => rfl)
  rw [val_main_v9_apply, val_main_v8_apply, e, max7_apply]

/-- Stage %11 at (b, p, h, r, j): the exponential of the score less the row maximum. -/
theorem exp_apply (j : Fin 256) :
    val_main_v11 (F := Ideal) x0 x1 x3 x4 (ix5 b p h r j)
      = Ideal.exp (rowScores x0 x1 x3 x4 b p h r j - rowMax (rowScores x0 x1 x3 x4 b p h r)) := by
  rw [val_main_v11_apply, val_main_v10_apply, score_apply, max9_apply]
  simp only [Ideal.hostUnary_exp_def, Ideal.subf_def]

/-- Stage %12 at (b, p, h, r): the sum of the row's exponentials. -/
theorem sum_apply :
    val_main_v12 (F := Ideal) x0 x1 x3 x4 (ix4 b p h r)
      = ∑ j : Fin 256, Ideal.exp (rowScores x0 x1 x3 x4 b p h r j - rowMax (rowScores x0 x1 x3 x4 b p h r)) := by
  have e : ∀ k : Fin 256, idx_main_v12 (ix4 b p h r) k = ix5 b p h r k := fun k =>
    funext fun a => Fin.ext (by match a with | ⟨0, _⟩ => rfl | ⟨1, _⟩ => rfl | ⟨2, _⟩ => rfl | ⟨3, _⟩ => rfl | ⟨4, _⟩ => rfl)
  rw [val_main_v12_apply, val_main_cst_2_apply]
  simp only [e, exp_apply, Ideal.ofBits_def, Ideal.ofBits_zero_f32, zero_add]

/-- Stage %15 at (b, p, h, r, j): the softmax weight of key j. -/
theorem weight_apply (j : Fin 256) :
    val_main_v15 (F := Ideal) x0 x1 x3 x4 (ix5 b p h r j) = weight (rowScores x0 x1 x3 x4 b p h r) j := by
  have e : idx_main_v13 (idx_main_v14 (ix5 b p h r j)) = ix4 b p h r :=
    funext fun a => Fin.ext (by match a with | ⟨0, _⟩ => rfl | ⟨1, _⟩ => rfl | ⟨2, _⟩ => rfl | ⟨3, _⟩ => rfl)
  rw [val_main_v15_apply, exp_apply, val_main_v14_apply, val_main_v13_apply, e, sum_apply]
  simp only [Ideal.hostDivf_def]
  rfl

/-- THE REFERENCE AT AN INDEX: its result at (b, p, h, r, d) is the attention output of query row (b, p, h, r)
    at feature d. -/
theorem result_apply (d : Fin 64) :
    val_main_v16 (F := Ideal) x0 x1 x2 x3 x4 (ix5 b p h r d)
      = attend (rowScores x0 x1 x3 x4 b p h r) (fun j d' => x2 (ix5 b p h j d')) d := by
  have el : ∀ k : Fin 256, lidx_main_v16 (ix5 b p h r d) k = ix5 b p h r k := fun k =>
    funext fun a => Fin.ext (by match a with | ⟨0, _⟩ => rfl | ⟨1, _⟩ => rfl | ⟨2, _⟩ => rfl | ⟨3, _⟩ => rfl | ⟨4, _⟩ => rfl)
  have er : ∀ k : Fin 256, ridx_main_v16 (ix5 b p h r d) k = ix5 b p h k d := fun k =>
    funext fun a => Fin.ext (by match a with | ⟨0, _⟩ => rfl | ⟨1, _⟩ => rfl | ⟨2, _⟩ => rfl | ⟨3, _⟩ => rfl | ⟨4, _⟩ => rfl)
  rw [val_main_v16_apply]
  unfold attend
  exact Finset.sum_congr rfl fun k _ => by rw [el, er, weight_apply]

end Cert.ReferenceIdeal.RefRow

end
-- ==== Proof.LibColumn3.lean ====
/-
  The keepdims forms of a reduction over the LAST axis of a rank-3 vector, each read at an index: the reduced [a, b]
  vector viewed as an [a, b, 1] column (same row-major position), and that column broadcast along the last axis to
  [a, b, c] (the unit axis reads 0, the other two their own coordinates). Together: a row statistic put back beside every
  entry of its row, as `jnp.max(x, axis=-1, keepdims=True)` / `jnp.sum(x, axis=-1, keepdims=True)` followed by a
  broadcasting subtraction or division does on a [a, b, c] block.
-/
import Idealize.ShloMosaic.Lib.Pipeline.Value
import Idealize.ShloMosaic.Lib.ValueIdx

namespace Idealize.ShloMosaic.LibColumn3

open Idealize.ShloMosaic Idealize.ShloMosaic.ValueIdx

variable {α : Type}

/-- An [a, b] vector cast to an [a, b, 1] column, read at (n, i, z), is entry (n, i). -/
theorem shapeCast_ab_ab1_apply {a b : ℕ} (Y : (⟨2, ![a, b]⟩ : Shape).Idx → α)
    (h : (⟨2, ![a, b]⟩ : Shape).ShapeCasts ⟨3, ![a, b, 1]⟩) (n : Fin a) (i : Fin b) (z : Fin 1) :
    shapeCast ⟨3, ![a, b, 1]⟩ Y h (ix3 n i z) = Y (ix2 n i) :=
  shapeCast_apply Y h (ix3 n i z) (ix2 n i) (by
    rw [Shape.rowMajor_val_two, Shape.rowMajor_val_three]
    show n.val * b + i.val = (n.val * b + i.val) * 1 + z.val
    have := z.isLt
    omega)

/-- An [a, b, 1] column broadcast along the last axis to [a, b, c], read at (n, i, j), is the column at (n, i, 0). -/
theorem broadcastTo_ab1_abc_apply {a b c : ℕ} (X : (⟨3, ![a, b, 1]⟩ : Shape).Idx → α)
    (h : (⟨3, ![a, b, 1]⟩ : Shape).Broadcasts ⟨3, ![a, b, c]⟩) (n : Fin a) (i : Fin b) (j : Fin c) :
    broadcastTo ⟨3, ![a, b, c]⟩ X h (ix3 n i j) = X (ix3 n i (0 : Fin 1)) :=
  broadcastTo_apply X h (ix3 n i j) (ix3 n i (0 : Fin 1)) (fun ax => by
    match ax with
    | ⟨0, _⟩ =>
      show n.val = if a = 1 then 0 else n.val
      by_cases ha : a = 1
      · rw [if_pos ha]; have := n.isLt; omega
      · rw [if_neg ha]
    | ⟨1, _⟩ =>
      show i.val = if b = 1 then 0 else i.val
      by_cases hb : b = 1
      · rw [if_pos hb]; have := i.isLt; omega
      · rw [if_neg hb]
    | ⟨2, _⟩ =>
      show 0 = if (1 : ℕ) = 1 then 0 else j.val
      rw [if_pos rfl])

/-- The two together: an [a, b] vector put back along a new last axis of extent c reads, at (n, i, j), entry (n, i). -/
theorem keepdims_last_apply {a b c : ℕ} (Y : (⟨2, ![a, b]⟩ : Shape).Idx → α)
    (h₁ : (⟨2, ![a, b]⟩ : Shape).ShapeCasts ⟨3, ![a, b, 1]⟩) (h₂ : (⟨3, ![a, b, 1]⟩ : Shape).Broadcasts ⟨3, ![a, b, c]⟩)
    (n : Fin a) (i : Fin b) (j : Fin c) :
    broadcastTo ⟨3, ![a, b, c]⟩ (shapeCast ⟨3, ![a, b, 1]⟩ Y h₁) h₂ (ix3 n i j) = Y (ix2 n i) :=
  (broadcastTo_ab1_abc_apply _ h₂ n i j).trans (shapeCast_ab_ab1_apply Y h₁ n i 0)

end Idealize.ShloMosaic.LibColumn3
-- ==== Proof.KernelRow.lean ====
/-
  The kernel body's arithmetic, read at one index of its output block.

  A block holds 16 batch entries. For batch entry n, query row i and feature d the stored value is the attention row
  function of Proof/AttentionRow.lean — with the temperature applied to the query entries before the dot product —
  of the rows of the five loaded blocks that share n: query row i, all 256 keys and values, and row i of the bias and
  the mask. The changes of float format are the identity on the extended reals; both matrix products accumulate into
  zero, so each is the plain sum over its one contracted axis; the two lane reductions are the fold of `max` from the
  word of −∞ and the plain sum; the reduced [16, 256] vector is put back along the keys as a [16, 256, 1] column
  broadcast to [16, 256, 256].
-/
import proofs.«147819_j72189810311255_2_alg».proof.Proof.Gen.KernelIdeal.Skeleton
import proofs.«147819_j72189810311255_2_alg».proof.Proof.AttentionRow
import proofs.«147819_j72189810311255_2_alg».proof.Proof.LibColumn3
import Idealize.ShloMosaic.Lib.ValueIdx
import Idealize.ShloMosaic.Lib.Pipeline.Value
import Idealize.ShloMosaic.PureOps.Ideal.Laws

noncomputable section

namespace Cert.KernelIdeal.KerRow

open Cert.KernelIdeal Cert.KernelIdeal.Gen Idealize.ShloMosaic Idealize.ShloMosaic.TcCoe
open Idealize.ShloMosaic.ValueIdx Cert.AttentionRow

/-! ## The two matrix products' operand indices, coordinate by coordinate -/

section QK
variable (i : S16x256x256.Idx) (q : dot_S16x256x64_S16x256x64_S16x256x256_2_2_1_1_0_0.contr.Idx)

theorem qk_lhs_0 : (dot_S16x256x64_S16x256x64_S16x256x256_2_2_1_1_0_0.lhsIdx i q 0).val = (i 0).val := by
  unfold DotDims.lhsIdx
  rw [dif_pos (show (0 : Fin S16x256x64.rank) ∈ dot_S16x256x64_S16x256x64_S16x256x256_2_2_1_1_0_0.lhsBatch by decide)]
  rfl
theorem qk_lhs_1 : (dot_S16x256x64_S16x256x64_S16x256x256_2_2_1_1_0_0.lhsIdx i q 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem qk_lhs_2 : (dot_S16x256x64_S16x256x64_S16x256x256_2_2_1_1_0_0.lhsIdx i q 2).val = (q ⟨0, by decide⟩).val :=
  dot_S16x256x64_S16x256x64_S16x256x256_2_2_1_1_0_0.lhsIdx_val_of_single rfl i q
theorem qk_rhs_0 : (dot_S16x256x64_S16x256x64_S16x256x256_2_2_1_1_0_0.rhsIdx i q 0).val = (i 0).val := by
  unfold DotDims.rhsIdx
  rw [dif_pos (show (0 : Fin S16x256x64.rank) ∈ dot_S16x256x64_S16x256x64_S16x256x256_2_2_1_1_0_0.rhsBatch by decide)]
  rfl
theorem qk_rhs_1 : (dot_S16x256x64_S16x256x64_S16x256x256_2_2_1_1_0_0.rhsIdx i q 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem qk_rhs_2 : (dot_S16x256x64_S16x256x64_S16x256x256_2_2_1_1_0_0.rhsIdx i q 2).val = (q ⟨0, by decide⟩).val :=
  dot_S16x256x64_S16x256x64_S16x256x256_2_2_1_1_0_0.rhsIdx_val_of_single rfl i q
end QK

section AV
variable (i : S16x256x64.Idx) (q : dot_S16x256x256_S16x256x64_S16x256x64_2_1_1_2_0_0.contr.Idx)

theorem av_lhs_0 : (dot_S16x256x256_S16x256x64_S16x256x64_2_1_1_2_0_0.lhsIdx i q 0).val = (i 0).val := by
  unfold DotDims.lhsIdx
  rw [dif_pos (show (0 : Fin S16x256x256.rank) ∈ dot_S16x256x256_S16x256x64_S16x256x64_2_1_1_2_0_0.lhsBatch by decide)]
  rfl
theorem av_lhs_1 : (dot_S16x256x256_S16x256x64_S16x256x64_2_1_1_2_0_0.lhsIdx i q 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem av_lhs_2 : (dot_S16x256x256_S16x256x64_S16x256x64_2_1_1_2_0_0.lhsIdx i q 2).val = (q ⟨0, by decide⟩).val :=
  dot_S16x256x256_S16x256x64_S16x256x64_2_1_1_2_0_0.lhsIdx_val_of_single rfl i q
theorem av_rhs_0 : (dot_S16x256x256_S16x256x64_S16x256x64_2_1_1_2_0_0.rhsIdx i q 0).val = (i 0).val := by
  unfold DotDims.rhsIdx
  rw [dif_pos (show (0 : Fin S16x256x64.rank) ∈ dot_S16x256x256_S16x256x64_S16x256x64_2_1_1_2_0_0.rhsBatch by decide)]
  rfl
theorem av_rhs_1 : (dot_S16x256x256_S16x256x64_S16x256x64_2_1_1_2_0_0.rhsIdx i q 1).val = (q ⟨0, by decide⟩).val :=
  dot_S16x256x256_S16x256x64_S16x256x64_2_1_1_2_0_0.rhsIdx_val_of_single rfl i q
theorem av_rhs_2 : (dot_S16x256x256_S16x256x64_S16x256x64_2_1_1_2_0_0.rhsIdx i q 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl
end AV

/-! ## The two matrix products at an index -/

/-- Queries against keys into zero: entry (n, i, j) is the dot product over the 64 features of row i of the left
    operand with row j of the right one, within batch entry n. -/
theorem qk_apply (L R : FVec Ideal S16x256x64 .bf16) (n : Fin 16) (i j : Fin 256) :
    matmul dot_S16x256x64_S16x256x64_S16x256x256_2_2_1_1_0_0 none L R (constant (F := Ideal) S16x256x256 .f32 0x00000000#32) (ix3 n i j)
      = ∑ d : Fin 64, L (ix3 n i d) * R (ix3 n j d) := by
  simp only [matmul]
  rw [Ideal.matmul_constant_zero_apply, ← Equiv.sum_comp (contrEquiv1 dot_S16x256x64_S16x256x64_S16x256x256_2_2_1_1_0_0 64 rfl rfl).symm]
  refine Finset.sum_congr rfl fun k _ => ?_
  have hk := contrEquiv1_symm_val dot_S16x256x64_S16x256x64_S16x256x256_2_2_1_1_0_0 64 rfl rfl k
  have el : dot_S16x256x64_S16x256x64_S16x256x256_2_2_1_1_0_0.lhsIdx (ix3 n i j) ((contrEquiv1 dot_S16x256x64_S16x256x64_S16x256x256_2_2_1_1_0_0 64 rfl rfl).symm k) = ix3 n i k := funext fun a => Fin.ext (by
    match a with
    | ⟨0, _⟩ => exact qk_lhs_0 _ _
    | ⟨1, _⟩ => exact qk_lhs_1 _ _
    | ⟨2, _⟩ => exact (qk_lhs_2 _ _).trans hk)
  have er : dot_S16x256x64_S16x256x64_S16x256x256_2_2_1_1_0_0.rhsIdx (ix3 n i j) ((contrEquiv1 dot_S16x256x64_S16x256x64_S16x256x256_2_2_1_1_0_0 64 rfl rfl).symm k) = ix3 n j k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- Weights against values into zero: entry (n, i, d) is the sum over the 256 keys of the left operand at (n, i, j)
    times the right one at (n, j, d). -/
theorem av_apply (L : FVec Ideal S16x256x256 .bf16) (R : FVec Ideal S16x256x64 .bf16) (n : Fin 16) (i : Fin 256) (d : Fin 64) :
    matmul dot_S16x256x256_S16x256x64_S16x256x64_2_1_1_2_0_0 none L R (constant (F := Ideal) S16x256x64 .f32 0x00000000#32) (ix3 n i d)
      = ∑ j : Fin 256, L (ix3 n i j) * R (ix3 n j d) := by
  simp only [matmul]
  rw [Ideal.matmul_constant_zero_apply, ← Equiv.sum_comp (contrEquiv1 dot_S16x256x256_S16x256x64_S16x256x64_2_1_1_2_0_0 256 rfl rfl).symm]
  refine Finset.sum_congr rfl fun k _ => ?_
  have hk := contrEquiv1_symm_val dot_S16x256x256_S16x256x64_S16x256x64_2_1_1_2_0_0 256 rfl rfl k
  have el : dot_S16x256x256_S16x256x64_S16x256x64_2_1_1_2_0_0.lhsIdx (ix3 n i d) ((contrEquiv1 dot_S16x256x256_S16x256x64_S16x256x64_2_1_1_2_0_0 256 rfl rfl).symm k) = ix3 n i k := funext fun a => Fin.ext (by
    match a with
    | ⟨0, _⟩ => exact av_lhs_0 _ _
    | ⟨1, _⟩ => exact av_lhs_1 _ _
    | ⟨2, _⟩ => exact (av_lhs_2 _ _).trans hk)
  have er : dot_S16x256x256_S16x256x64_S16x256x64_2_1_1_2_0_0.rhsIdx (ix3 n i d) ((contrEquiv1 dot_S16x256x256_S16x256x64_S16x256x64_2_1_1_2_0_0 256 rfl rfl).symm k) = ix3 n k d := funext fun a => Fin.ext (by
    match a with
    | ⟨0, _⟩ => exact av_rhs_0 _ _
    | ⟨1, _⟩ => exact (av_rhs_1 _ _).trans hk
    | ⟨2, _⟩ => exact av_rhs_2 _ _)
  rw [el, er]

/-! ## The lane reductions and the column put back -/

/-- The reduced index (n, i) with key k put back is (n, i, k). -/
theorem lift_ix2 (hr : S16x256x256.Reduces [2] S16x256) (n : Fin 16) (i : Fin 256) (k : Fin (S16x256x256.size 2)) :
    hr.lift (ix2 n i) k = ix3 n i (⟨k.val, k.isLt⟩ : Fin 256) := by
  funext c; apply Fin.ext
  fin_cases c <;> rfl

/-- The maximum over the keys, from the word of −∞, at (n, i). -/
theorem laneMax_apply (X : FVec Ideal S16x256x256 .f32) (hφ : FKind.Formats .f32)
    (hacc : (0xFF800000#32 : BitVec 32) = FKind.maximumf.neutral .f32 hφ) (n : Fin 16) (i : Fin 256) :
    multiReduction (F := Ideal) .maximumf [2] S16x256 X 0xFF800000#32 reduces_S16x256x256_S16x256 hφ hacc (ix2 n i)
      = rowMax (fun j => X (ix3 n i j)) := by
  refine (Ideal.multiReduction_maximumf_single X 0xFF800000#32 reduces_S16x256x256_S16x256 hφ hacc (ix2 n i)).trans ?_
  have hf : (X ∘ reduces_S16x256x256_S16x256.lift (ix2 n i)) = fun k : Fin 256 => X (ix3 n i k) :=
    funext fun k => congrArg X (lift_ix2 reduces_S16x256x256_S16x256 n i k)
  unfold rowMax
  exact congrArg (fun f => Finset.fold max floorWord f (Finset.univ : Finset (Fin 256))) hf

/-- The sum over the keys at (n, i). -/
theorem laneSum_apply (X : FVec Ideal S16x256x256 .f32) (hφ : FKind.Formats .f32)
    (hacc : (0x00000000#32 : BitVec 32) = FKind.add.neutral .f32 hφ) (n : Fin 16) (i : Fin 256) :
    multiReduction (F := Ideal) .add [2] S16x256 X 0x00000000#32 reduces_S16x256x256_S16x256 hφ hacc (ix2 n i)
      = ∑ j : Fin 256, X (ix3 n i j) := by
  refine (Ideal.multiReduction_add_single X 0x00000000#32 reduces_S16x256x256_S16x256 hφ hacc (ix2 n i)).trans ?_
  exact Finset.sum_congr rfl fun k _ => congrArg X (lift_ix2 reduces_S16x256x256_S16x256 n i k)

/-- A [16, 256] vector viewed as a [16, 256, 1] column and broadcast along the keys reads, at (n, i, j), entry (n, i)
    (the general rank-3 form is Proof/LibColumn3.lean's). -/
theorem column_apply (Y : FVec Ideal S16x256 .f32) (n : Fin 16) (i j : Fin 256) :
    broadcastTo S16x256x256 (shapeCast S16x256x1 Y shapeCasts_S16x256_S16x256x1) broadcasts_S16x256x1_S16x256x256 (ix3 n i j)
      = Y (ix2 n i) := by
  exact LibColumn3.keepdims_last_apply Y shapeCasts_S16x256_S16x256x1 broadcasts_S16x256x1_S16x256x256 n i j

/-! ## The body in two pieces: the scores, and the softmax-weighted sum -/

/-- The block of masked, biased scores the body forms from its loads. -/
def scoreBlock (x0 x1 : FVec Ideal S16x256x64 .f32) (x3 x4 : FVec Ideal S16x256x256 .bf16) : FVec Ideal S16x256x256 .f32 :=
  mulf (extf .f32 (shapeCast S16x256x256 x4 shapeCasts_S16x256x256_S16x256x256) bitsLt_bf16_f32)
    (addf
      (matmul dot_S16x256x64_S16x256x64_S16x256x256_2_2_1_1_0_0 none
        (truncf .bf16 (mulf (shapeCast S16x256x64 x0 shapeCasts_S16x256x64_S16x256x64) (broadcast S16x256x64 (Scalar.ofBits .f32 0x3E000000#32))) bitsLt_bf16_f32)
        (truncf .bf16 (shapeCast S16x256x64 x1 shapeCasts_S16x256x64_S16x256x64) bitsLt_bf16_f32)
        (constant (F := Ideal) S16x256x256 .f32 0x00000000#32))
      (extf .f32 (shapeCast S16x256x256 x3 shapeCasts_S16x256x256_S16x256x256) bitsLt_bf16_f32))

/-- The row maxima of a block of scores, put back along the keys. -/
def maxBlock (s : FVec Ideal S16x256x256 .f32) : FVec Ideal S16x256x256 .f32 :=
  broadcastTo S16x256x256
    (shapeCast S16x256x1 (multiReduction (F := Ideal) .maximumf [2] S16x256 s 0xFF800000#32 reduces_S16x256x256_S16x256 (.inl rfl) rfl) shapeCasts_S16x256_S16x256x1)
    broadcasts_S16x256x1_S16x256x256

/-- The exponentials of the scores less their row maxima. -/
def expBlock (s : FVec Ideal S16x256x256 .f32) : FVec Ideal S16x256x256 .f32 := exp (subf s (maxBlock s))

/-- The row sums of the exponentials, put back along the keys. -/
def sumBlock (s : FVec Ideal S16x256x256 .f32) : FVec Ideal S16x256x256 .f32 :=
  broadcastTo S16x256x256
    (shapeCast S16x256x1 (multiReduction (F := Ideal) .add [2] S16x256 (expBlock s) 0x00000000#32 reduces_S16x256x256_S16x256 (.inl rfl) rfl) shapeCasts_S16x256_S16x256x1)
    broadcasts_S16x256x1_S16x256x256

/-- The softmax weights of a block of scores applied to a block of values. -/
def softBlock (s : FVec Ideal S16x256x256 .f32) (vv : FVec Ideal S16x256x64 .bf16) : FVec Ideal S16x256x64 .f32 :=
  matmul dot_S16x256x256_S16x256x64_S16x256x64_2_1_1_2_0_0 none (truncf .bf16 (divf (expBlock s) (sumBlock s)) bitsLt_bf16_f32) vv
    (constant (F := Ideal) S16x256x64 .f32 0x00000000#32)

/-- The body's one stored value is these two pieces composed. -/
theorem pay_eq (x0 x1 x2 : FVec Ideal S16x256x64 .f32) (x3 x4 : FVec Ideal S16x256x256 .bf16) :
    k0_pay1 (F := Ideal) x0 x1 x2 x3 x4
      = softBlock (scoreBlock x0 x1 x3 x4) (truncf .bf16 (shapeCast S16x256x64 x2 shapeCasts_S16x256x64_S16x256x64) bitsLt_bf16_f32) := rfl

/-- The scores block at (n, i, j): the score of key j for query row i of batch entry n, the temperature on the query. -/
theorem scoreBlock_apply (x0 x1 : FVec Ideal S16x256x64 .f32) (x3 x4 : FVec Ideal S16x256x256 .bf16) (n : Fin 16) (i j : Fin 256) :
    scoreBlock x0 x1 x3 x4 (ix3 n i j)
      = scoresScaledQuery (fun d' => x0 (ix3 n i d')) (fun j' d' => x1 (ix3 n j' d'))
          (fun j' => x3 (ix3 n i j')) (fun j' => x4 (ix3 n i j')) j := by
  unfold scoreBlock scoresScaledQuery
  simp only [shapeCast_self]
  show x4 (ix3 n i j) * (matmul dot_S16x256x64_S16x256x64_S16x256x256_2_2_1_1_0_0 none _ _ (constant (F := Ideal) S16x256x256 .f32 0x00000000#32) (ix3 n i j) + x3 (ix3 n i j)) = _
  rw [qk_apply]
  rfl

theorem maxBlock_apply (s : FVec Ideal S16x256x256 .f32) (n : Fin 16) (i j : Fin 256) :
    maxBlock s (ix3 n i j) = rowMax (fun j' => s (ix3 n i j')) := by
  unfold maxBlock
  rw [column_apply]
  exact laneMax_apply s _ _ n i

theorem expBlock_apply (s : FVec Ideal S16x256x256 .f32) (n : Fin 16) (i j : Fin 256) :
    expBlock s (ix3 n i j) = Ideal.exp (s (ix3 n i j) - rowMax (fun j' => s (ix3 n i j'))) := by
  show Ideal.exp (s (ix3 n i j) - maxBlock s (ix3 n i j)) = _
  rw [maxBlock_apply]

theorem sumBlock_apply (s : FVec Ideal S16x256x256 .f32) (n : Fin 16) (i j : Fin 256) :
    sumBlock s (ix3 n i j) = ∑ j' : Fin 256, Ideal.exp (s (ix3 n i j') - rowMax (fun j'' => s (ix3 n i j''))) := by
  unfold sumBlock
  rw [column_apply]
  refine (laneSum_apply (expBlock s) _ _ n i).trans ?_
  exact Finset.sum_congr rfl fun k _ => expBlock_apply s n i k

/-- The weighted sum at (n, i, d): the attention output of the row of scores (n, i, ·) over the values of entry n. -/
theorem softBlock_apply (s : FVec Ideal S16x256x256 .f32) (vv : FVec Ideal S16x256x64 .bf16) (n : Fin 16) (i : Fin 256) (d : Fin 64) :
    softBlock s vv (ix3 n i d) = attend (fun j => s (ix3 n i j)) (fun j d' => vv (ix3 n j d')) d := by
  unfold softBlock
  refine (av_apply _ vv n i d).trans ?_
  unfold attend
  refine Finset.sum_congr rfl fun j _ => ?_
  show Ideal.div (expBlock s (ix3 n i j)) (sumBlock s (ix3 n i j)) * vv (ix3 n j d) = weight (fun j => s (ix3 n i j)) j * vv (ix3 n j d)
  rw [expBlock_apply, sumBlock_apply]
  rfl

/-- THE BODY AT AN INDEX: the stored value at (n, i, d) is the attention output of query row (n, i) at feature d,
    the temperature applied on the query side. -/
theorem pay_apply (x0 x1 x2 : FVec Ideal S16x256x64 .f32) (x3 x4 : FVec Ideal S16x256x256 .bf16) (n : Fin 16) (i : Fin 256) (d : Fin 64) :
    k0_pay1 (F := Ideal) x0 x1 x2 x3 x4 (ix3 n i d)
      = attend (scoresScaledQuery (fun d' => x0 (ix3 n i d')) (fun j d' => x1 (ix3 n j d'))
          (fun j => x3 (ix3 n i j)) (fun j => x4 (ix3 n i j))) (fun j d' => x2 (ix3 n j d')) d := by
  rw [pay_eq, softBlock_apply]
  have hs : (fun j => scoreBlock x0 x1 x3 x4 (ix3 n i j)) = scoresScaledQuery (fun d' => x0 (ix3 n i d')) (fun j d' => x1 (ix3 n j d'))
      (fun j => x3 (ix3 n i j)) (fun j => x4 (ix3 n i j)) := funext fun j => scoreBlock_apply x0 x1 x3 x4 n i j
  rw [hs]
  simp only [shapeCast_self]
  rfl

end Cert.KernelIdeal.KerRow

end
-- ==== Proof.OutputArray.lean ====
/-
  The kernel's output array after the run, as one function of the arrays the region finds.

  The grid has 64 points; point t stages rows 16·t … 16·t + 15 of the leading (flattened batch) axis of every
  operand, whole on the other two axes, and writes the same rows of the output back. So what point t writes back is
  block t of ONE whole-array function: at (N, i, d) the attention output of query row (N, i) of the flattened
  arrays at feature d. The 64 blocks tile the leading axis, so the output array ends holding that function everywhere.
-/
import proofs.«147819_j72189810311255_2_alg».proof.Proof.Gen.KernelIdeal.Frame
import proofs.«147819_j72189810311255_2_alg».proof.Proof.KernelRow
import Idealize.ShloMosaic.Lib.Pipeline.Value
import Idealize.ShloMosaic.Lib.ValueIdx

set_option maxRecDepth 16384

noncomputable section

namespace Cert.KernelIdeal.OutArray

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.AttentionRow Cert.KernelIdeal.KerRow

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The attention output over the flattened batch axis: at (N, i, d), query row (N, i) against the keys, values, bias
    row and mask row of entry N, the temperature on the query side. -/
def attnArray (Q K Vv : S1024x256x64.Idx → EReal) (P Mk : S1024x256x256.Idx → EReal) : S1024x256x64.Idx → EReal :=
  fun z => attend
    (scoresScaledQuery (fun d' => Q (ix3 (z 0 : Fin 1024) (z 1 : Fin 256) d')) (fun j d' => K (ix3 (z 0 : Fin 1024) j d'))
      (fun j => P (ix3 (z 0 : Fin 1024) (z 1 : Fin 256) j)) (fun j => Mk (ix3 (z 0 : Fin 1024) (z 1 : Fin 256) j)))
    (fun j d' => Vv (ix3 (z 0 : Fin 1024) j d')) (z 2 : Fin 64)

/-- A block's stored value at (n, i, d) is the whole-array function at (N, i, d) as soon as the five loaded blocks are
    the rows N of the five arrays. -/
theorem pay_eq_attnArray (Q K Vv : S1024x256x64.Idx → EReal) (P Mk : S1024x256x256.Idx → EReal)
    (x0 x1 x2 : FVec Ideal S16x256x64 .f32) (x3 x4 : FVec Ideal S16x256x256 .bf16)
    (n : Fin 16) (N : Fin 1024) (i : Fin 256) (d : Fin 64)
    (h0 : ∀ (i' : Fin 256) (d' : Fin 64), x0 (ix3 n i' d') = Q (ix3 N i' d'))
    (h1 : ∀ (j : Fin 256) (d' : Fin 64), x1 (ix3 n j d') = K (ix3 N j d'))
    (h2 : ∀ (j : Fin 256) (d' : Fin 64), x2 (ix3 n j d') = Vv (ix3 N j d'))
    (h3 : ∀ (i' j : Fin 256), x3 (ix3 n i' j) = P (ix3 N i' j))
    (h4 : ∀ (i' j : Fin 256), x4 (ix3 n i' j) = Mk (ix3 N i' j)) :
    k0_pay1 (F := Ideal) x0 x1 x2 x3 x4 (ix3 n i d) = attnArray Q K Vv P Mk (ix3 N i d) := by
  rw [pay_apply]
  unfold attnArray
  simp only [h0, h1, h2, h3, h4]

/-- The printed index maps, decided over the 64 points: every window's block index is the point's number on the leading
    axis and zero on the other two. -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- WHAT POINT t WRITES BACK is block t of the whole-array function of the arrays as the region finds them. -/
theorem flushed_eq (c : Dev nD) (t : Fin cfg0.N) :
    (dats m 0 c).flushed 5 t
      = ((cfg0.win 5).blk t).view.read (Elt Ideal)
          (attnArray (V m c main_v0) (V m c main_v1) (V m c main_v2) (V m c main_v4) (V m c main_v6)) := by
  show (cfg0.win 5).cut (grid0.coords t) ((dats m 0 c).after 5 t) = _
  rw [after0_5]
  unfold out0_5
  rw [View.canon_unit_zero zeroOffsets]
  simp only [View.ld_unit_zero (S := S16x256x64) zeroOffsets, View.ld_unit_zero (S := S16x256x256) zeroOffsets]
  obtain ⟨e50, e51, e52, e00, e01, e02, e10, e11, e12, e20, e21, e22, e30, e31, e32, e40, e41, e42⟩ := idx_facts t
  have hN : grid0.N = 64 := N_0
  have ht : t.val < 64 := by have h : t.val < grid0.N := t.isLt; omega
  refine funext fun (y : S16x256x64.Idx) => ?_
  obtain ⟨n, i, d, rfl⟩ : ∃ (n : Fin 16) (i : Fin 256) (d : Fin 64), y = ix3 n i d := ⟨y 0, y 1, y 2, eq_ix3 y⟩
  have hn : n.val < 16 := n.isLt
  let N : Fin 1024 := ⟨t.val * 16 + n.val, by omega⟩
  have hout : ((cfg0.win 5).blk t).view.emb (ix3 n i d) = ix3 N i d := by
    funext a; apply Fin.ext
    match a with
    | ⟨0, _⟩ => show win0_5.index t (0 : Fin 3) * 16 + 1 * n.val = t.val * 16 + n.val; omega
    | ⟨1, _⟩ => show win0_5.index t (1 : Fin 3) * 256 + 1 * i.val = i.val; omega
    | ⟨2, _⟩ => show win0_5.index t (2 : Fin 3) * 64 + 1 * d.val = d.val; omega
  show k0_pay1 (F := Ideal) (iblk m c 0 t) (iblk m c 1 t) (iblk m c 2 t) (iblk m c 3 t) (iblk m c 4 t) (ix3 n i d)
    = attnArray (V m c main_v0) (V m c main_v1) (V m c main_v2) (V m c main_v4) (V m c main_v6) (((cfg0.win 5).blk t).view.emb (ix3 n i d))
  rw [hout]
  refine pay_eq_attnArray (V m c main_v0) (V m c main_v1) (V m c main_v2) (V m c main_v4) (V m c main_v6)
    (iblk m c 0 t) (iblk m c 1 t) (iblk m c 2 t) (iblk m c 3 t) (iblk m c 4 t) n N i d ?_ ?_ ?_ ?_ ?_
  · intro i' d'
    show V m c main_v0 (((cfg0.win 0).blk t).view.emb (ix3 n i' d')) = V m c main_v0 (ix3 N i' d')
    refine congrArg (V m c main_v0) (funext fun a => Fin.ext ?_)
    match a with
    | ⟨0, _⟩ => show win0_0.index t (0 : Fin 3) * 16 + 1 * n.val = t.val * 16 + n.val; omega
    | ⟨1, _⟩ => show win0_0.index t (1 : Fin 3) * 256 + 1 * i'.val = i'.val; omega
    | ⟨2, _⟩ => show win0_0.index t (2 : Fin 3) * 64 + 1 * d'.val = d'.val; omega
  · intro j d'
    show V m c main_v1 (((cfg0.win 1).blk t).view.emb (ix3 n j d')) = V m c main_v1 (ix3 N j d')
    refine congrArg (V m c main_v1) (funext fun a => Fin.ext ?_)
    match a with
    | ⟨0, _⟩ => show win0_1.index t (0 : Fin 3) * 16 + 1 * n.val = t.val * 16 + n.val; omega
    | ⟨1, _⟩ => show win0_1.index t (1 : Fin 3) * 256 + 1 * j.val = j.val; omega
    | ⟨2, _⟩ => show win0_1.index t (2 : Fin 3) * 64 + 1 * d'.val = d'.val; omega
  · intro j d'
    show V m c main_v2 (((cfg0.win 2).blk t).view.emb (ix3 n j d')) = V m c main_v2 (ix3 N j d')
    refine congrArg (V m c main_v2) (funext fun a => Fin.ext ?_)
    match a with
    | ⟨0, _⟩ => show win0_2.index t (0 : Fin 3) * 16 + 1 * n.val = t.val * 16 + n.val; omega
    | ⟨1, _⟩ => show win0_2.index t (1 : Fin 3) * 256 + 1 * j.val = j.val; omega
    | ⟨2, _⟩ => show win0_2.index t (2 : Fin 3) * 64 + 1 * d'.val = d'.val; omega
  · intro i' j
    show V m c main_v4 (((cfg0.win 3).blk t).view.emb (ix3 n i' j)) = V m c main_v4 (ix3 N i' j)
    refine congrArg (V m c main_v4) (funext fun a => Fin.ext ?_)
    match a with
    | ⟨0, _⟩ => show win0_3.index t (0 : Fin 3) * 16 + 1 * n.val = t.val * 16 + n.val; omega
    | ⟨1, _⟩ => show win0_3.index t (1 : Fin 3) * 256 + 1 * i'.val = i'.val; omega
    | ⟨2, _⟩ => show win0_3.index t (2 : Fin 3) * 256 + 1 * j.val = j.val; omega
  · intro i' j
    show V m c main_v6 (((cfg0.win 4).blk t).view.emb (ix3 n i' j)) = V m c main_v6 (ix3 N i' j)
    refine congrArg (V m c main_v6) (funext fun a => Fin.ext ?_)
    match a with
    | ⟨0, _⟩ => show win0_4.index t (0 : Fin 3) * 16 + 1 * n.val = t.val * 16 + n.val; omega
    | ⟨1, _⟩ => show win0_4.index t (1 : Fin 3) * 256 + 1 * i'.val = i'.val; omega
    | ⟨2, _⟩ => show win0_4.index t (2 : Fin 3) * 256 + 1 * j.val = j.val; omega

/-- An index of the output array is in point t's block iff each coordinate is in the block's range on its axis. -/
theorem mem_blk (t : Fin cfg0.N) (z : S1024x256x64.Idx) :
    z ∈ ((cfg0.win 5).blk t).view.set ↔ ∀ a : Fin 3, win0_5.index t a * S16x256x64.size a ≤ (z a).val ∧ (z a).val < win0_5.index t a * S16x256x64.size a + S16x256x64.size a := by
  show z ∈ ((View.whole main_v7).slice (win0_5.rect t)).set ↔ _
  rw [View.set_slice_whole, Rect.mem_set_unit]
  exact Iff.rfl

/-- Every index of the output array is in the block of the point numbered by its leading coordinate divided by 16. -/
theorem cover (z : S1024x256x64.Idx) :
    ∃ t : Fin cfg0.N, (cfg0.win 5).flush t = true ∧ z ∈ ((cfg0.win 5).blk t).view.set := by
  have hN : grid0.N = 64 := N_0
  have hz0 : (z 0).val < 1024 := (z 0).isLt
  have hz1 : (z 1).val < 256 := (z 1).isLt
  have hz2 : (z 2).val < 64 := (z 2).isLt
  have hlt : (z 0).val / 16 < grid0.N := by omega
  refine ⟨⟨(z 0).val / 16, hlt⟩, flush0_5 _, ?_⟩
  rw [mem_blk]
  obtain ⟨e0, e1, e2, -⟩ := idx_facts ⟨(z 0).val / 16, hlt⟩
  have e0' : win0_5.index ⟨(z 0).val / 16, hlt⟩ (0 : Fin 3) = (z 0).val / 16 := e0
  intro a
  match a with
  | ⟨0, _⟩ =>
    show win0_5.index ⟨(z 0).val / 16, hlt⟩ (0 : Fin 3) * 16 ≤ (z 0).val ∧ (z 0).val < win0_5.index ⟨(z 0).val / 16, hlt⟩ (0 : Fin 3) * 16 + 16
    omega
  | ⟨1, _⟩ =>
    show win0_5.index ⟨(z 0).val / 16, hlt⟩ (1 : Fin 3) * 256 ≤ (z 1).val ∧ (z 1).val < win0_5.index ⟨(z 0).val / 16, hlt⟩ (1 : Fin 3) * 256 + 256
    omega
  | ⟨2, _⟩ =>
    show win0_5.index ⟨(z 0).val / 16, hlt⟩ (2 : Fin 3) * 64 ≤ (z 2).val ∧ (z 2).val < win0_5.index ⟨(z 0).val / 16, hlt⟩ (2 : Fin 3) * 64 + 64
    omega

/-- THE OUTPUT ARRAY after the run is the whole-array function of the arrays the region found. -/
theorem final (c : Dev nD) :
    (dats m 0 c).arrAt 5 cfg0.N
      = attnArray (V m c main_v0) (V m c main_v1) (V m c main_v2) (V m c main_v4) (V m c main_v6) :=
  (dats m 0 c).arrAt_eq_of_cover 5 _ (fun t _ => flushed_eq m c t) cover

end Cert.KernelIdeal.OutArray

end
-- ==== Proof.KernelValue.lean ====
/-
  The kernel program's result as a function of its five arguments, and its run.

  Before the region the host flattens the three leading batch axes (2, 64, 8) of every argument into one axis of 1024
  (a reshape: same row-major position) and changes the bias and the mask to bf16 (the identity on the extended
  reals); after it, the host splits the output's leading axis back. Batch entry (b, p, h) sits at position
  (b·64 + p)·8 + h of the flattened axis, so the result at (b, p, h, r, d) is the attention output of query row
  (b, p, h, r) at feature d; moving the temperature from the query entries to the finished dot product gives the
  form the reference computes.
-/
import proofs.«147819_j72189810311255_2_alg».proof.Proof.OutputArray
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.ValueIdx Cert.AttentionRow Cert.KernelIdeal.OutArray

/-! ## The flattened batch axis -/

/-- The position of batch entry (b, p, h) on the flattened axis. -/
def flat (b : Fin 2) (p : Fin 64) (h : Fin 8) : Fin 1024 :=
  ⟨(b.val * 64 + p.val) * 8 + h.val, by have := b.isLt; have := p.isLt; have := h.isLt; omega⟩

section Flatten
variable {α : Type}

/-- A [2,64,8,256,64] array flattened to [1024,256,64], read at (flat b p h, r, d), is the array at (b, p, h, r, d). -/
theorem flatten64_apply (X : S2x64x8x256x64.Idx → α) (hc : S2x64x8x256x64.ShapeCasts S1024x256x64)
    (b : Fin 2) (p : Fin 64) (h : Fin 8) (r : Fin 256) (d : Fin 64) :
    shapeCast S1024x256x64 X hc (ix3 (flat b p h) r d) = X (ix5 b p h r d) :=
  shapeCast_apply X hc (ix3 (flat b p h) r d) (ix5 b p h r d) (by
    rw [Shape.rowMajor_val_five, Shape.rowMajor_val_three]
    rfl)

/-- The same for a [2,64,8,256,256] array flattened to [1024,256,256]. -/
theorem flatten256_apply (X : S2x64x8x256x256.Idx → α) (hc : S2x64x8x256x256.ShapeCasts S1024x256x256)
    (b : Fin 2) (p : Fin 64) (h : Fin 8) (r j : Fin 256) :
    shapeCast S1024x256x256 X hc (ix3 (flat b p h) r j) = X (ix5 b p h r j) :=
  shapeCast_apply X hc (ix3 (flat b p h) r j) (ix5 b p h r j) (by
    rw [Shape.rowMajor_val_five, Shape.rowMajor_val_three]
    rfl)

/-- A [1024,256,64] array split back to [2,64,8,256,64], read at (b, p, h, r, d), is the array at (flat b p h, r, d). -/
theorem unflatten64_apply (Y : S1024x256x64.Idx → α) (hc : S1024x256x64.ShapeCasts S2x64x8x256x64)
    (b : Fin 2) (p : Fin 64) (h : Fin 8) (r : Fin 256) (d : Fin 64) :
    shapeCast S2x64x8x256x64 Y hc (ix5 b p h r d) = Y (ix3 (flat b p h) r d) :=
  shapeCast_apply Y hc (ix5 b p h r d) (ix3 (flat b p h) r d) (by
    rw [Shape.rowMajor_val_five, Shape.rowMajor_val_three]
    rfl)

end Flatten

/-! ## The result as a function of the arguments -/

/-- The kernel program's result: flatten, attend over the flattened batch axis, split back. -/
def result (q k v : S2x64x8x256x64.Idx → EReal) (pos mask : S2x64x8x256x256.Idx → EReal) : S2x64x8x256x64.Idx → EReal :=
  shapeCast S2x64x8x256x64
    (attnArray (shapeCast S1024x256x64 q shapeCasts_S2x64x8x256x64_S1024x256x64)
      (shapeCast S1024x256x64 k shapeCasts_S2x64x8x256x64_S1024x256x64)
      (shapeCast S1024x256x64 v shapeCasts_S2x64x8x256x64_S1024x256x64)
      (truncf (F := Ideal) .bf16 (shapeCast S1024x256x256 pos shapeCasts_S2x64x8x256x256_S1024x256x256) bitsLt_bf16_f32)
      (truncf (F := Ideal) .bf16 (shapeCast S1024x256x256 mask shapeCasts_S2x64x8x256x256_S1024x256x256) bitsLt_bf16_f32))
    shapeCasts_S1024x256x64_S2x64x8x256x64

theorem attnArray_apply (Q K Vv : S1024x256x64.Idx → EReal) (P Mk : S1024x256x256.Idx → EReal) (N : Fin 1024) (i : Fin 256) (d : Fin 64) :
    attnArray Q K Vv P Mk (ix3 N i d)
      = attend (scoresScaledQuery (fun d' => Q (ix3 N i d')) (fun j d' => K (ix3 N j d'))
          (fun j => P (ix3 N i j)) (fun j => Mk (ix3 N i j))) (fun j d' => Vv (ix3 N j d')) d := rfl

/-- THE KERNEL'S RESULT AT AN INDEX: at (b, p, h, r, d) the attention output of query row (b, p, h, r) at feature d, in
    the reference's form (the temperature on the finished dot product). -/
theorem result_apply (q k v : S2x64x8x256x64.Idx → EReal) (pos mask : S2x64x8x256x256.Idx → EReal)
    (b : Fin 2) (p : Fin 64) (h : Fin 8) (r : Fin 256) (d : Fin 64) :
    result q k v pos mask (ix5 b p h r d)
      = attend (scores (fun d' => q (ix5 b p h r d')) (fun j d' => k (ix5 b p h j d'))
          (fun j => pos (ix5 b p h r j)) (fun j => mask (ix5 b p h r j))) (fun j d' => v (ix5 b p h j d')) d := by
  unfold result
  rw [unflatten64_apply, attnArray_apply]
  simp only [flatten64_apply, flatten256_apply, truncf_apply]
  rw [scoresScaledQuery_eq]

/-! ## The arrays the region finds, and the result the tail leaves -/

variable (m : (ℓ : Loc nD τ sig) → Buf (Elt Ideal) ℓ) (ρ : Dev nD → PrngReg)

theorem found_q (c : Dev nD) : (V m c main_v0 : S1024x256x64.Idx → EReal)
    = shapeCast S1024x256x64 (m ((c : Thread nD τ).loc main_arg0)) shapeCasts_S2x64x8x256x64_S1024x256x64 := by
  show StableHlo.after hostOps0 (fun b => m (c, b)) (Proc.devRef .tc main_v0) = _
  after_results
  rfl

theorem found_k (c : Dev nD) : (V m c main_v1 : S1024x256x64.Idx → EReal)
    = shapeCast S1024x256x64 (m ((c : Thread nD τ).loc main_arg1)) shapeCasts_S2x64x8x256x64_S1024x256x64 := by
  show StableHlo.after hostOps0 (fun b => m (c, b)) (Proc.devRef .tc main_v1) = _
  after_results
  rfl

theorem found_v (c : Dev nD) : (V m c main_v2 : S1024x256x64.Idx → EReal)
    = shapeCast S1024x256x64 (m ((c : Thread nD τ).loc main_arg2)) shapeCasts_S2x64x8x256x64_S1024x256x64 := by
  show StableHlo.after hostOps0 (fun b => m (c, b)) (Proc.devRef .tc main_v2) = _
  after_results
  rfl

theorem found_pos (c : Dev nD) : (V m c main_v4 : S1024x256x256.Idx → EReal)
    = truncf (F := Ideal) .bf16 (shapeCast S1024x256x256 (m ((c : Thread nD τ).loc main_arg3)) shapeCasts_S2x64x8x256x256_S1024x256x256) bitsLt_bf16_f32 := by
  show StableHlo.after hostOps0 (fun b => m (c, b)) (Proc.devRef .tc main_v4) = _
  after_results
  rfl

theorem found_mask (c : Dev nD) : (V m c main_v6 : S1024x256x256.Idx → EReal)
    = truncf (F := Ideal) .bf16 (shapeCast S1024x256x256 (m ((c : Thread nD τ).loc main_arg4)) shapeCasts_S2x64x8x256x256_S1024x256x256) bitsLt_bf16_f32 := by
  show StableHlo.after hostOps0 (fun b => m (c, b)) (Proc.devRef .tc main_v6) = _
  after_results
  rfl

/-- The tail's one operation splits the region's output array back. -/
theorem tail_raw (c : Dev nD) :
    Pipeline.afterTail₀ cfgs (dats m) 0 (V0 m) [hostOps1] c main_v8
      = shapeCast S2x64x8x256x64
          (Pipeline.withArrays (cfgs 0).spec c (V0 m c) (fun w => (dats m 0 c).arrAt w (cfgs 0).N) (Proc.devRef .tc main_v7) : S1024x256x64.Idx → EReal)
          shapeCasts_S1024x256x64_S2x64x8x256x64 := by
  unfold Pipeline.afterTail₀
  show StableHlo.after hostOps1 _ (Proc.devRef .tc main_v8) = _
  after_results
  rfl

/-- The region's output array, as the tail finds it, is the whole-array function of the flattened arguments. -/
theorem region_out (c : Dev nD) :
    (Pipeline.withArrays (cfgs 0).spec c (V0 m c) (fun w => (dats m 0 c).arrAt w (cfgs 0).N) (Proc.devRef .tc main_v7) : S1024x256x64.Idx → EReal)
      = attnArray (shapeCast S1024x256x64 (m ((c : Thread nD τ).loc main_arg0)) shapeCasts_S2x64x8x256x64_S1024x256x64)
          (shapeCast S1024x256x64 (m ((c : Thread nD τ).loc main_arg1)) shapeCasts_S2x64x8x256x64_S1024x256x64)
          (shapeCast S1024x256x64 (m ((c : Thread nD τ).loc main_arg2)) shapeCasts_S2x64x8x256x64_S1024x256x64)
          (truncf (F := Ideal) .bf16 (shapeCast S1024x256x256 (m ((c : Thread nD τ).loc main_arg3)) shapeCasts_S2x64x8x256x256_S1024x256x256) bitsLt_bf16_f32)
          (truncf (F := Ideal) .bf16 (shapeCast S1024x256x256 (m ((c : Thread nD τ).loc main_arg4)) shapeCasts_S2x64x8x256x256_S1024x256x256) bitsLt_bf16_f32) := by
  refine (Pipeline.withArrays_arr spec0 launch0.win.arr_inj c _ _ 5).trans ?_
  refine (final m c).trans ?_
  rw [found_q, found_k, found_v, found_pos, found_mask]

/-- THE RESULT BUFFER after the run is `result` of the five arguments. -/
theorem tail_eq (c : Dev nD) :
    Pipeline.afterTail₀ cfgs (dats m) 0 (V0 m) [hostOps1] c main_v8
      = result (m ((c : Thread nD τ).loc main_arg0)) (m ((c : Thread nD τ).loc main_arg1)) (m ((c : Thread nD τ).loc main_arg2))
          (m ((c : Thread nD τ).loc main_arg3)) (m ((c : Thread nD τ).loc main_arg4)) :=
  (tail_raw m c).trans (congrArg (fun A : S1024x256x64.Idx → EReal => shapeCast S2x64x8x256x64 A shapeCasts_S1024x256x64_S2x64x8x256x64) (region_out m c))

/-! ## The run -/

/-- Every weakly fair execution of the kernel program terminates with the result buffer at `result` of the arguments
    and the arguments unchanged. -/
theorem run : θ_run defs (onTc (τ := τ) (main (F := Ideal))) ⟨m, fun _ => 0, ρ⟩ (fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  Windowed attention with an additive positional bias and a multiplicative mask: the kernel against its jnp reference,
  equal over the extended reals.

  Both programs take q, k, v : [2, 64, 8, 256, 64] and pos, mask : [2, 64, 8, 256, 256]. For every batch entry (b, p, h) and
  query position r the reference forms the scores s j = mask j · (⟨q r, k j⟩ · (1/8) + pos j) over the 256 keys j, the
  softmax weights exp (s j − max s) / ∑ exp (s j' − max s), and the output ∑ j, weight j · v j d at each of the 64
  features d. The kernel flattens (b, p, h) into one axis of 1024, works on blocks of 16 entries, multiplies the query
  entries by 1/8 before the dot product, carries the bias and the mask in bf16 and feeds both matrix products bf16
  operands — every change of format is the identity on the extended reals — and splits the axis back.

  The only arithmetic difference is where the factor 1/8 sits: on each query entry, or on the finished dot product.
  Multiplication by a finite nonnegative constant distributes over every sum of extended reals, so the scores agree for
  all inputs (Proof/AttentionRow.lean); everything after the scores is the same operations in the same order, the
  reference's second `max` with −∞ changing nothing and its sum starting from 0. So the proof never opens the
  finiteness precondition.

  Proof/ReferenceRow.lean reads the reference at an index; Proof/KernelRow.lean reads the kernel body at an index of
  its block; Proof/OutputArray.lean shows the 64 blocks written back are the blocks of one whole-array function and
  tile the output; Proof/KernelValue.lean reads the host's reshapes around the region and states the kernel program's
  run. Here the two results are shown to be one function of the arguments and the five claims are assembled; the
  idealization rewrote nothing, so `preserves` is `True`.
-/
import proofs.«147819_j72189810311255_2_alg».proof.Defs
import proofs.«147819_j72189810311255_2_alg».proof.Proof.Gen.Kernel
import proofs.«147819_j72189810311255_2_alg».proof.Proof.Gen.Kernel.Skeleton
import proofs.«147819_j72189810311255_2_alg».proof.Proof.Gen.Kernel.Launch
import proofs.«147819_j72189810311255_2_alg».proof.Proof.Gen.Kernel.Points
import proofs.«147819_j72189810311255_2_alg».proof.Proof.Gen.Kernel.Frame
import proofs.«147819_j72189810311255_2_alg».proof.Proof.Gen.KernelIdeal
import proofs.«147819_j72189810311255_2_alg».proof.Proof.Gen.KernelIdeal.Skeleton
import proofs.«147819_j72189810311255_2_alg».proof.Proof.Gen.KernelIdeal.Launch
import proofs.«147819_j72189810311255_2_alg».proof.Proof.Gen.KernelIdeal.Points
import proofs.«147819_j72189810311255_2_alg».proof.Proof.Gen.KernelIdeal.Frame
import proofs.«147819_j72189810311255_2_alg».proof.Proof.Gen.ReferenceIdeal
import proofs.«147819_j72189810311255_2_alg».proof.Proof.Gen.Pre_finite_inputs
import proofs.«147819_j72189810311255_2_alg».proof.Proof.Gen.ReferenceIdeal.Run
import proofs.«147819_j72189810311255_2_alg».proof.Proof.Gen.ReferenceIdeal.Read
import proofs.«147819_j72189810311255_2_alg».proof.Proof.ReferenceRow
import proofs.«147819_j72189810311255_2_alg».proof.Proof.KernelValue
import Idealize.ShloMosaic.Adequacy
import Idealize.ShloMosaic.Init

noncomputable section

namespace Cert.Proof

open Idealize.ShloMosaic Idealize.SL.Sem Idealize.ShloMosaic.ValueIdx

/-- The reference's result and the kernel program's result are one function of the five arguments: at every index
    (b, p, h, r, d) both are the attention output of query row (b, p, h, r) at feature d. -/
theorem result_eq (q k v : Cert.KernelIdeal.S2x64x8x256x64.Idx → EReal) (pos mask : Cert.KernelIdeal.S2x64x8x256x256.Idx → EReal) :
    Cert.ReferenceIdeal.Read.val_main_v16 (F := Ideal) q k v pos mask = Cert.KernelIdeal.KernelValue.result q k v pos mask := by
  funext i
  obtain ⟨b, p, h, r, d, rfl⟩ : ∃ (b : Fin 2) (p : Fin 64) (h : Fin 8) (r : Fin 256) (d : Fin 64), i = ix5 b p h r d :=
    ⟨i 0, i 1, i 2, i 3, i 4, eq_ix5 i⟩
  rw [Cert.ReferenceIdeal.RefRow.result_apply, Cert.KernelIdeal.KernelValue.result_apply]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run, and from arguments that agree they end with the same result. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono
    (fun _ h c => ⟨(h c).1.trans ((Cert.ReferenceIdeal.Read.val_main_v16_eq _ _ _ _ _).trans ?_), (h c).2⟩)
    (Cert.ReferenceIdeal.Value.run (F := Ideal) m' ρ')
  rw [(hagree c).1, (hagree c).2.1, (hagree c).2.2.1, (hagree c).2.2.2.1, (hagree c).2.2.2.2]
  exact result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
